-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S5000x128 : Shape := ⟨2, ![5000, 128]⟩
abbrev S1650000x128 : Shape := ⟨2, ![1650000, 128]⟩
abbrev S1x128 : Shape := ⟨2, ![1, 128]⟩
abbrev S50000x64 : Shape := ⟨2, ![50000, 64]⟩
abbrev S5000x64 : Shape := ⟨2, ![5000, 64]⟩
abbrev S1650000x64 : Shape := ⟨2, ![1650000, 64]⟩
abbrev S1x64 : Shape := ⟨2, ![1, 64]⟩

abbrev nBuf : Space → Nat
  | .hbm => 108
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S50000, .i32⟩
  | .hbm, ⟨13, _⟩ => ⟨S1650000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .bf16⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .bf16⟩
  | .hbm, ⟨58, _⟩ => ⟨S1650000x128, .f32⟩
  | .hbm, ⟨59, _⟩ => ⟨S1650000x1, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .bf16⟩
  | .hbm, ⟨69, _⟩ => ⟨S_, .i32⟩
  | .hbm, ⟨70, _⟩ => ⟨S1650000, .i32⟩
  | .hbm, ⟨71, _⟩ => ⟨S1650000, .i1⟩
  | .hbm, ⟨72, _⟩ => ⟨S_, .i32⟩
  | .hbm, ⟨73, _⟩ => ⟨S1650000, .i32⟩
  | .hbm, ⟨74, _⟩ => ⟨S1650000, .i32⟩
  | .hbm, ⟨75, _⟩ => ⟨S1650000, .i32⟩
  | .hbm, ⟨76, _⟩ => ⟨S1650000x1, .i32⟩
  | .hbm, ⟨77, _⟩ => ⟨S1650000x128, .bf16⟩
  | .hbm, ⟨78, _⟩ => ⟨S1650000x128, .f32⟩
  | .hbm, ⟨79, _⟩ => ⟨S1650000x1, .f32⟩
  | .hbm, ⟨80, _⟩ => ⟨S1650000x128, .f32⟩
  | .hbm, ⟨81, _⟩ => ⟨S1650000x128, .f32⟩
  | .hbm, ⟨82, _⟩ => ⟨S_, .f32⟩
  | .hbm, ⟨83, _⟩ => ⟨S50000x128, .f32⟩
  | .hbm, ⟨84, _⟩ => ⟨S1650000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x64, .bf16⟩
  | .hbm, ⟨89, _⟩ => ⟨S_, .i32⟩
  | .hbm, ⟨90, _⟩ => ⟨S1650000, .i32⟩
  | .hbm, ⟨91, _⟩ => ⟨S1650000, .i1⟩
  | .hbm, ⟨92, _⟩ => ⟨S_, .i32⟩
  | .hbm, ⟨93, _⟩ => ⟨S1650000, .i32⟩
  | .hbm, ⟨94, _⟩ => ⟨S1650000, .i32⟩
  | .hbm, ⟨95, _⟩ => ⟨S1650000, .i32⟩
  | .hbm, ⟨96, _⟩ => ⟨S1650000x1, .i32⟩
  | .hbm, ⟨97, _⟩ => ⟨S1650000x64, .bf16⟩
  | .hbm, ⟨98, _⟩ => ⟨S1650000x64, .f32⟩
  | .hbm, ⟨99, _⟩ => ⟨S1650000x1, .f32⟩
  | .hbm, ⟨100, _⟩ => ⟨S1650000x64, .f32⟩
  | .hbm, ⟨101, _⟩ => ⟨S1650000x64, .f32⟩
  | .hbm, ⟨102, _⟩ => ⟨S_, .f32⟩
  | .hbm, ⟨103, _⟩ => ⟨S50000x64, .f32⟩
  | .hbm, ⟨104, _⟩ => ⟨S1650000x1, .i32⟩
  | .hbm, ⟨105, _⟩ => ⟨S50000x64, .f32⟩
  | .hbm, ⟨106, _⟩ => ⟨S1x64, .f32⟩
  | .hbm, ⟨107, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .bf16⟩
  | .local _ .vmem, ⟨24, _⟩ => ⟨S5000x64, .bf16⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .bf16 = 32 ∨ (Rect.block (s := S50000x128) S5000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .bf16 = 32 ∨ (Rect.block (s := S50000x64) S5000x64.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S50000, .i32⟩
  | 13 => ⟨S1650000, .i32⟩
  | 14 => ⟨S1650000, .i32⟩
  | 15 => ⟨S_, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S1650000, .i32⟩
  | 31 => ⟨S1650000, .i1⟩
  | 32 => ⟨S_, .i32⟩
  | 33 => ⟨S1650000, .i32⟩
  | 34 => ⟨S1650000, .i32⟩
  | 35 => ⟨S1650000, .i32⟩
  | 36 => ⟨S1650000x1, .i32⟩
  | 37 => ⟨S1650000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S1650000, .f32⟩
  | 48 => ⟨S50000x128, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1650000x128, .f32⟩
  | 58 => ⟨S1650000x1, .f32⟩
  | 59 => ⟨S1650000x128, .f32⟩
  | 60 => ⟨S1650000x128, .f32⟩
  | 61 => ⟨S_, .f32⟩
  | 62 => ⟨S50000x128, .f32⟩
  | 63 => ⟨S1650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000, .i32⟩
  | 72 => ⟨S1650000, .i32⟩
  | 73 => ⟨S1650000, .i32⟩
  | 74 => ⟨S_, .f32⟩
  | 75 => ⟨S1650000, .f32⟩
  | 76 => ⟨S_, .f32⟩
  | 77 => ⟨S50000, .f32⟩
  | 78 => ⟨S1650000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S1650000, .i32⟩
  | 90 => ⟨S1650000, .i1⟩
  | 91 => ⟨S_, .i32⟩
  | 92 => ⟨S1650000, .i32⟩
  | 93 => ⟨S1650000, .i32⟩
  | 94 => ⟨S1650000, .i32⟩
  | 95 => ⟨S1650000x1, .i32⟩
  | 96 => ⟨S1650000, .f32⟩
  | 97 => ⟨S_, .i32⟩
  | 98 => ⟨S1650000, .i32⟩
  | 99 => ⟨S1650000, .i1⟩
  | 100 => ⟨S_, .i32⟩
  | 101 => ⟨S1650000, .i32⟩
  | 102 => ⟨S1650000, .i32⟩
  | 103 => ⟨S1650000, .i32⟩
  | 104 => ⟨S1650000x1, .i32⟩
  | 105 => ⟨S1650000, .f32⟩
  | 106 => ⟨S1650000, .f32⟩
  | 107 => ⟨S50000x128, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1650000x128, .f32⟩
  | 117 => ⟨S1650000x1, .f32⟩
  | 118 => ⟨S1650000x128, .f32⟩
  | 119 => ⟨S1650000x128, .f32⟩
  | 120 => ⟨S_, .f32⟩
  | 121 => ⟨S50000x128, .f32⟩
  | 122 => ⟨S1650000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000, .i32⟩
  | 3 => ⟨S1650000, .i32⟩
  | 4 => ⟨S1650000, .i32⟩
  | 5 => ⟨S_, .f32⟩
  | 6 => ⟨S1650000, .f32⟩
  | 7 => ⟨S_, .f32⟩
  | 8 => ⟨S50000, .f32⟩
  | 9 => ⟨S1650000x1, .i32⟩
  | 10 => ⟨S50000, .f32⟩
  | 11 => ⟨S_, .f32⟩
  | 12 => ⟨S50000, .f32⟩
  | 13 => ⟨S50000, .i1⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S1650000, .i32⟩
  | 21 => ⟨S1650000, .i1⟩
  | 22 => ⟨S_, .i32⟩
  | 23 => ⟨S1650000, .i32⟩
  | 24 => ⟨S1650000, .i32⟩
  | 25 => ⟨S1650000, .i32⟩
  | 26 => ⟨S1650000x1, .i32⟩
  | 27 => ⟨S1650000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S1650000, .f32⟩
  | 38 => ⟨S50000x64, .f32⟩
  | 39 => ⟨S_, .i32⟩
  | 40 => ⟨S1650000, .i32⟩
  | 41 => ⟨S1650000, .i1⟩
  | 42 => ⟨S_, .i32⟩
  | 43 => ⟨S1650000, .i32⟩
  | 44 => ⟨S1650000, .i32⟩
  | 45 => ⟨S1650000, .i32⟩
  | 46 => ⟨S1650000x1, .i32⟩
  | 47 => ⟨S1650000x64, .f32⟩
  | 48 => ⟨S1650000x1, .f32⟩
  | 49 => ⟨S1650000x64, .f32⟩
  | 50 => ⟨S1650000x64, .f32⟩
  | 51 => ⟨S_, .f32⟩
  | 52 => ⟨S50000x64, .f32⟩
  | 53 => ⟨S1650000x1, .i32⟩
  | 54 => ⟨S50000x64, .f32⟩
  | 55 => ⟨S1x64, .f32⟩
  | 56 => ⟨S50000x64, .f32⟩
  | 57 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_cst_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_22 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_23 : Ref sig .tc := ⟨.hbm, 143, rfl⟩
abbrev main_call4_v0 : Ref sig .tc := ⟨.hbm, 144, rfl⟩
abbrev main_call4_v1 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_c_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_26 : Ref sig .tc := ⟨.hbm, 156, rfl⟩
abbrev main_v110 : Ref sig .tc := ⟨.hbm, 157, rfl⟩
abbrev main_v111 : Ref sig .tc := ⟨.hbm, 158, rfl⟩
abbrev main_c_27 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_28 : Ref sig .tc := ⟨.hbm, 167, rfl⟩
abbrev main_v119 : Ref sig .tc := ⟨.hbm, 168, rfl⟩
abbrev main_v120 : Ref sig .tc := ⟨.hbm, 169, rfl⟩
abbrev main_c_29 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The idealized kernel's run with its RESULT named. Every weakly fair execution of the program from a memory with zero
  counters ends, without a fault, with every buffer the program does not scope at the contents the last segment leaves
  (the fold of the host stretches and of the six regions' write-backs from the launch memory): in particular the result
  buffer holds that fold's value there, and the eight argument arrays hold what they were launched with.
-/
import proofs.«146135_j41326175322384_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the twelve segments, read at the result buffer and at the arguments: the last thread state holds every
    unscoped buffer at the last boundary's contents, and the final memory is read against it. -/
theorem run_result : θ_run defs (onTc (τ := τ) (main (F := F))) ⟨m, fun _ => 0, ρ⟩ (fun r => ∀ c : Dev nD,
      r.2.mem ((c.tc : Thread nD τ).loc main_v80) = W12 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v80 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.Spec.lean ====
/-
  The three-layer graph convolution that both programs compute, written once over whole arrays.

  The graph has 50000 nodes and 1600000 edges given as two rows of node numbers (sources, destinations); every node also
  sends a message to itself, so there are 1650000 messages. With deg(v) the number of messages arriving at v and
  dinv = deg^(-1/2) where deg > 0 (0 elsewhere), message e carries the weight norm(e) = dinv(src e) · dinv(dst e). One layer
  maps node features h to  out(v) = Σ_{e : dst e = v} (h·W)(src e) · norm(e) + b,  and the first two layers are followed by
  max(·, 0). The operations are the host's own (slice, concatenate, scatter-add, gather, matrix product, broadcasts),
  never opened here: the two programs are compared as compositions of these same operations.
-/
import proofs.«146135_j41326175322384_1_alg».proof.ReferenceIdeal
import proofs.«146135_j41326175322384_1_alg».proof.Proof.Gen.ReferenceIdeal

noncomputable section

namespace Cert.Spec

open Idealize.ShloMosaic Cert.ReferenceIdeal Cert.ReferenceIdeal.Gen

variable {F : FTy → Type} [FloatOps F]

/-- An array of 32-bit integers / of f32 numbers of a given shape. -/
abbrev I32 (F : FTy → Type) (S : Shape) : Type := (⟨S, .i32⟩ : BufTy).Contents (Elt F)
abbrev F32 (F : FTy → Type) (S : Shape) : Type := (⟨S, .f32⟩ : BufTy).Contents (Elt F)

/-- The messages' source nodes: row 0 of the edge list, then every node once (the self-loops). -/
def srcs (ei : I32 F S2x1600000) : I32 F S1650000 :=
  concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0

/-- The messages' destination nodes: row 1 of the edge list, then every node once. -/
def dsts (ei : I32 F S2x1600000) : I32 F S1650000 :=
  concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0

/-- A negative node number counts from the end: v < 0 becomes v + 50000 (jnp's indexing rule). -/
def wrap (v : I32 F S1650000) : I32 F S1650000 :=
  select (cmpi .slt v (broadcastInDim S1650000 ![] bcast_S_S1650000 (constantI S_ 32 0#32))) (addi v (broadcastInDim S1650000 ![] bcast_S_S1650000 (constantI S_ 32 50000#32))) v

/-- The number of messages arriving at each node, from the list d of destinations: a scatter-add of ones into zeros. -/
def degOf (d : I32 F S1650000) : F32 F S50000 :=
  Host.scatterAdd scatter_S50000_S1650000x1_S1650000_n_0_0_1 (broadcastInDim S50000 ![] bcast_S_S50000 (constant S_ .f32 0x00000000#32)) (broadcastInDim S1650000x1 ![0] bcast_S1650000_S1650000x1_0 d) (broadcastInDim S1650000 ![] bcast_S_S1650000 (constant S_ .f32 0x3F800000#32))

/-- deg(v): the number of messages arriving at node v. -/
def deg (ei : I32 F S2x1600000) : F32 F S50000 := degOf (dsts ei)

/-- dg^(-1/2) where dg > 0, and 0 elsewhere. -/
def dinvOf (dg : F32 F S50000) : F32 F S50000 :=
  select (cmpf .ogt dg (broadcastInDim S50000 ![] bcast_S_S50000 (constant S_ .f32 0x00000000#32))) (Host.rsqrt dg) (broadcastInDim S50000 ![] bcast_S_S50000 (id (constant S_ .f32 0x00000000#32)))

/-- dinv(v) = deg(v)^(-1/2) where deg(v) > 0, and 0 elsewhere. -/
def dinv (ei : I32 F S2x1600000) : F32 F S50000 := dinvOf (deg ei)

/-- The weight of each message from per-node factors dv and the lists s, d of sources and destinations: dv(s e) · dv(d e). -/
def normOf (dv : F32 F S50000) (s d : I32 F S1650000) : F32 F S1650000 :=
  mulf (Host.gather gather_S50000_S1650000x1_S1650000_n_0_n_n_0_1_1 dv (broadcastInDim S1650000x1 ![0] bcast_S1650000_S1650000x1_0 (wrap s)))
    (Host.gather gather_S50000_S1650000x1_S1650000_n_0_n_n_0_1_1 dv (broadcastInDim S1650000x1 ![0] bcast_S1650000_S1650000x1_0 (wrap d)))

/-- norm(e) = dinv(src e) · dinv(dst e). -/
def norm (ei : I32 F S2x1600000) : F32 F S1650000 := normOf (dinv ei) (srcs ei) (dsts ei)

/-- Aggregation of 128 features over messages with sources s, destinations d and weights nrm: row v of the result is the
    sum over the messages e with d e = v of h(s e) · nrm(e). -/
def aggOf128 (h : F32 F S50000x128) (s d : I32 F S1650000) (nrm : F32 F S1650000) : F32 F S50000x128 :=
  Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 d)
    (mulf (Host.gather gather_S50000x128_S1650000x1_S1650000x128_1_0_n_n_0_1_1128 h (broadcastInDim S1650000x1 ![0] bcast_S1650000_S1650000x1_0 (wrap s)))
      (broadcastInDim S1650000x128 ![0, 1] bcast_S1650000x1_S1650000x128_0_1 (broadcastInDim S1650000x1 ![0] bcast_S1650000_S1650000x1_0 nrm)))

/-- The same aggregation of 64 features. -/
def aggOf64 (h : F32 F S50000x64) (s d : I32 F S1650000) (nrm : F32 F S1650000) : F32 F S50000x64 :=
  Host.scatterAdd scatter_S50000x64_S1650000x1_S1650000x64_1_0_0_1 (broadcastInDim S50000x64 ![] bcast_S_S50000x64 (constant S_ .f32 0x00000000#32)) (broadcastInDim S1650000x1 ![0] bcast_S1650000_S1650000x1_0 d)
    (mulf (Host.gather gather_S50000x64_S1650000x1_S1650000x64_1_0_n_n_0_1_164 h (broadcastInDim S1650000x1 ![0] bcast_S1650000_S1650000x1_0 (wrap s)))
      (broadcastInDim S1650000x64 ![0, 1] bcast_S1650000x1_S1650000x64_0_1 (broadcastInDim S1650000x1 ![0] bcast_S1650000_S1650000x1_0 nrm)))

/-- The aggregation over the graph's own messages. -/
def agg128 (h : F32 F S50000x128) (ei : I32 F S2x1600000) : F32 F S50000x128 := aggOf128 h (srcs ei) (dsts ei) (norm ei)
def agg64 (h : F32 F S50000x64) (ei : I32 F S2x1600000) : F32 F S50000x64 := aggOf64 h (srcs ei) (dsts ei) (norm ei)

/-- The node features times a weight matrix: (x·W)(v, j) = Σ_k x(v, k) · W(k, j). -/
def lin128 (x : F32 F S50000x128) (w : F32 F S128x128) : F32 F S50000x128 :=
  Host.dotGeneral dot_S50000x128_S128x128_S50000x128_1_0_0_1_n_n none x w
def lin64 (x : F32 F S50000x128) (w : F32 F S128x64) : F32 F S50000x64 :=
  Host.dotGeneral dot_S50000x128_S128x64_S50000x64_1_0_0_1_n_n none x w

/-- A row [1, n] added to every row of a matrix. -/
def addRow128 (a : F32 F S50000x128) (r : F32 F S1x128) : F32 F S50000x128 :=
  addf a (broadcastInDim S50000x128 ![0, 1] bcast_S1x128_S50000x128_0_1 r)
def addRow64 (a : F32 F S50000x64) (r : F32 F S1x64) : F32 F S50000x64 :=
  addf a (broadcastInDim S50000x64 ![0, 1] bcast_S1x64_S50000x64_0_1 r)

/-- A bias vector as a row: b[None, :]. -/
def row128 (b : F32 F S128) : F32 F S1x128 := broadcastInDim S1x128 ![1] bcast_S128_S1x128_1 b
def row64 (b : F32 F S64) : F32 F S1x64 := broadcastInDim S1x64 ![1] bcast_S64_S1x64_1 b

/-- max(a, 0), entry by entry. -/
def relu128 (a : F32 F S50000x128) : F32 F S50000x128 :=
  maximumf a (broadcastInDim S50000x128 ![] bcast_S_S50000x128 (constant S_ .f32 0x00000000#32))

/-- One hidden layer: max(agg(h·W) + b, 0). -/
def hidden (h : F32 F S50000x128) (ei : I32 F S2x1600000) (w : F32 F S128x128) (b : F32 F S128) : F32 F S50000x128 :=
  relu128 (addRow128 (agg128 (lin128 h w) ei) (row128 b))

/-- The network: two hidden layers and the output layer agg(h·W3) + b3. -/
def gcn (x : F32 F S50000x128) (ei : I32 F S2x1600000) (w1 : F32 F S128x128) (b1 : F32 F S128) (w2 : F32 F S128x128) (b2 : F32 F S128)
    (w3 : F32 F S128x64) (b3 : F32 F S64) : F32 F S50000x64 :=
  addRow64 (agg64 (lin64 (hidden (hidden x ei w1 b1) ei w2 b2) w3) ei) (row64 b3)

end Cert.Spec

end
-- ==== Proof.Stages.lean ====
/-
  The host stretches of the idealized kernel's program, read one at a time. Each stretch is a list of host operations
  applied to the buffer contents W it starts from; the lemmas below say what a few buffers hold after a stretch, as the
  specification's operations of what other buffers held before it, for ANY starting contents W:
  - the first three stretches compute, from the edge list alone, the messages' sources and destinations, the node
    degrees, their inverse square roots and the message weights;
  - each of the three later stretches gathers the rows of a projected feature matrix (stored as bf16, widened to f32:
    the identity on the extended reals), scales them by the message weights and scatter-adds them to their
    destinations, and reshapes that layer's bias vector to a row;
  - a buffer no operation of a stretch writes holds after it what it held before.
-/
import proofs.«146135_j41326175322384_1_alg».proof.Proof.Gen.KernelIdeal.Launch
import proofs.«146135_j41326175322384_1_alg».proof.Proof.Spec
import Idealize.ShloMosaic.Lib.StableHlo.Run
import Idealize.ShloMosaic.PureOps.Ideal

set_option maxRecDepth 16384

noncomputable section

namespace Cert.KernelIdeal.Stages

open Cert.KernelIdeal Cert.KernelIdeal.Gen Idealize.ShloMosaic Idealize.ShloMosaic.TcCoe Idealize.ShloMosaic.StableHlo

section AnyFloat

variable {F : FTy → Type} [FloatOps F] (W : Valuation τ sig (Elt F))

/-! ## The first stretch: sources, destinations, degrees -/

theorem first_srcs : after (hostOps0 (F := F)) W (Proc.devRef .tc main_v5) = Cert.Spec.srcs (W (Proc.devRef .tc main_arg1)) := by
  after_results; rfl
theorem first_dsts : after (hostOps0 (F := F)) W (Proc.devRef .tc main_v6) = Cert.Spec.dsts (W (Proc.devRef .tc main_arg1)) := by
  after_results; rfl
theorem first_pos : after (hostOps0 (F := F)) W (Proc.devRef .tc main_v12)
    = cmpf .ogt (Cert.Spec.deg (F := F) (W (Proc.devRef .tc main_arg1))) (broadcastInDim S50000 ![] bcast_S_S50000 (constant S_ .f32 0x00000000#32)) := by
  after_results; rfl
theorem first_rsqrt : after (hostOps0 (F := F)) W (Proc.devRef .tc main_v13) = Host.rsqrt (Cert.Spec.deg (F := F) (W (Proc.devRef .tc main_arg1))) := by
  after_results; rfl
theorem first_zero : after (hostOps0 (F := F)) W (Proc.devRef .tc main_cst_2) = constant (F := F) S_ .f32 0x00000000#32 := by
  after_results

/-! ## The second stretch: the inverse square root where the degree is positive, zero elsewhere -/

theorem second_dinv : after (hostOps0_1 (F := F)) W (Proc.devRef .tc main_v14)
    = select (W (Proc.devRef .tc main_v12)) (W (Proc.devRef .tc main_v13)) (broadcastInDim S50000 ![] bcast_S_S50000 (id (W (Proc.devRef .tc main_cst_2)))) := by
  after_results; rfl
theorem second_keeps_srcs : after (hostOps0_1 (F := F)) W (Proc.devRef .tc main_v5) = W (Proc.devRef .tc main_v5) := by
  after_results
theorem second_keeps_dsts : after (hostOps0_1 (F := F)) W (Proc.devRef .tc main_v6) = W (Proc.devRef .tc main_v6) := by
  after_results

/-! ## The third stretch: the message weights -/

theorem third_norm : after (hostOps0_2 (F := F)) W (Proc.devRef .tc main_v29)
    = Cert.Spec.normOf (W (Proc.devRef .tc main_v14)) (W (Proc.devRef .tc main_v5)) (W (Proc.devRef .tc main_v6)) := by
  after_results_simp
  rfl
theorem third_keeps_srcs : after (hostOps0_2 (F := F)) W (Proc.devRef .tc main_v5) = W (Proc.devRef .tc main_v5) := by
  after_results
theorem third_keeps_dsts : after (hostOps0_2 (F := F)) W (Proc.devRef .tc main_v6) = W (Proc.devRef .tc main_v6) := by
  after_results

/-! ## The three stretches together, from the edge list -/

theorem graph_srcs : after (hostOps0_2 (F := F)) (after hostOps0_1 (after hostOps0 W)) (Proc.devRef .tc main_v5)
    = Cert.Spec.srcs (W (Proc.devRef .tc main_arg1)) := by
  rw [third_keeps_srcs, second_keeps_srcs, first_srcs]
theorem graph_dsts : after (hostOps0_2 (F := F)) (after hostOps0_1 (after hostOps0 W)) (Proc.devRef .tc main_v6)
    = Cert.Spec.dsts (W (Proc.devRef .tc main_arg1)) := by
  rw [third_keeps_dsts, second_keeps_dsts, first_dsts]
theorem graph_norm : after (hostOps0_2 (F := F)) (after hostOps0_1 (after hostOps0 W)) (Proc.devRef .tc main_v29)
    = Cert.Spec.norm (W (Proc.devRef .tc main_arg1)) := by
  rw [third_norm, second_dinv, second_keeps_srcs, first_srcs, second_keeps_dsts, first_dsts,
    first_pos, first_rsqrt, first_zero]
  rfl

end AnyFloat

/-! ## The stretches between the regions, on the extended reals -/

section OnReals

variable (W : Valuation τ sig (Elt Ideal))

theorem layer1_agg : after (hostOps1 (F := Ideal)) W (Proc.devRef .tc main_v44)
    = Cert.Spec.aggOf128 (F := Ideal) (W (Proc.devRef .tc main_v30)) (W (Proc.devRef .tc main_v5)) (W (Proc.devRef .tc main_v6)) (W (Proc.devRef .tc main_v29)) := by
  after_results_simp
  rfl
theorem layer1_row : after (hostOps1 (F := Ideal)) W (Proc.devRef .tc main_v45)
    = shapeCast S1x128 (W (Proc.devRef .tc main_arg3)) shapeCasts_S128_S1x128 := by
  after_results; rfl
theorem layer2_agg : after (hostOps3 (F := Ideal)) W (Proc.devRef .tc main_v61)
    = Cert.Spec.aggOf128 (F := Ideal) (W (Proc.devRef .tc main_v47)) (W (Proc.devRef .tc main_v5)) (W (Proc.devRef .tc main_v6)) (W (Proc.devRef .tc main_v29)) := by
  after_results_simp
  rfl
theorem layer2_row : after (hostOps3 (F := Ideal)) W (Proc.devRef .tc main_v62)
    = shapeCast S1x128 (W (Proc.devRef .tc main_arg5)) shapeCasts_S128_S1x128 := by
  after_results; rfl
theorem layer3_agg : after (hostOps5 (F := Ideal)) W (Proc.devRef .tc main_v78)
    = Cert.Spec.aggOf64 (F := Ideal) (W (Proc.devRef .tc main_v64)) (W (Proc.devRef .tc main_v5)) (W (Proc.devRef .tc main_v6)) (W (Proc.devRef .tc main_v29)) := by
  after_results_simp
  rfl
theorem layer3_row : after (hostOps5 (F := Ideal)) W (Proc.devRef .tc main_v79)
    = shapeCast S1x64 (W (Proc.devRef .tc main_arg7)) shapeCasts_S64_S1x64 := by
  after_results; rfl

end OnReals

end Cert.KernelIdeal.Stages

end
-- ==== Proof.Keeps.lean ====
/-
  Which buffers each segment of the idealized kernel's program leaves alone. A host stretch changes only the buffers
  its operations write; a region changes only its three arrays (the two operands are written back as read, the result
  is new). So a buffer that no segment between two boundaries touches holds at the later boundary what it held at
  the earlier one: the edge list's sources, destinations and message weights computed before the first region reach
  every later stretch unchanged, and each weight matrix and bias vector reaches the segment that reads it as launched.
-/
import proofs.«146135_j41326175322384_1_alg».proof.Proof.Gen.KernelIdeal.Frame
import Idealize.ShloMosaic.Lib.StableHlo.Run

set_option maxRecDepth 16384

noncomputable section

namespace Cert.KernelIdeal.Keeps

open Cert.KernelIdeal Cert.KernelIdeal.Gen Idealize.ShloMosaic Idealize.ShloMosaic.TcCoe Idealize.SL.Sem

variable {F : FTy → Type} [FloatOps F]

/-! ## What the host stretches write -/

/-- The buffers the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps0_1` write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps0_2` write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps1` write. -/
abbrev hostOps1_W : List (Ref sig .tc) := [main_c_6, main_v31, main_v32, main_c_7, main_v33, main_v34, main_v35, main_v36, main_v37, main_v38, main_v39, main_v40, main_v41, main_cst_8, main_v42, main_v43, main_v44, main_v45]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers the operations of `hostOps3` write. -/
abbrev hostOps3_W : List (Ref sig .tc) := [main_c_9, main_v48, main_v49, main_c_10, main_v50, main_v51, main_v52, main_v53, main_v54, main_v55, main_v56, main_v57, main_v58, main_cst_11, main_v59, main_v60, main_v61, main_v62]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg) (c : Dev nD)

/-! ## From the launch to the first region -/

/-- A buffer none of the first three stretches writes enters the first region as launched. -/
theorem entry0_of (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 _ hostOps0_2_writes h2).trans
    ((StableHlo.after_of_writes_sub hostOps0_1 _ hostOps0_1_writes h1).trans
      (StableHlo.after_of_writes_sub hostOps0 _ hostOps0_writes h0))

/-! ## Across the regions and the later stretches -/

/-- Across the first region. -/
theorem exit0_of (r : Ref sig .tc) (h : ∀ w, Pipeline.arrRef spec0 w ≠ r) :
    W4 m ρ c (Proc.devRef .tc r) = W3 m ρ c (Proc.devRef .tc r) := W4_of_ne m ρ c r h

/-- Across the stretch after the first region and the second region. -/
theorem exit1_of (r : Ref sig .tc) (hs : r ∉ hostOps1_W) (h : ∀ w, Pipeline.arrRef spec1 w ≠ r) :
    W6 m ρ c (Proc.devRef .tc r) = W4 m ρ c (Proc.devRef .tc r) :=
  (W6_of_ne m ρ c r h).trans (StableHlo.after_of_writes_sub hostOps1 _ hostOps1_writes hs)

/-- Across the third region. -/
theorem exit2_of (r : Ref sig .tc) (h : ∀ w, Pipeline.arrRef spec2 w ≠ r) :
    W7 m ρ c (Proc.devRef .tc r) = W6 m ρ c (Proc.devRef .tc r) := W7_of_ne m ρ c r h

/-- Across the stretch after the third region and the fourth region. -/
theorem exit3_of (r : Ref sig .tc) (hs : r ∉ hostOps3_W) (h : ∀ w, Pipeline.arrRef spec3 w ≠ r) :
    W9 m ρ c (Proc.devRef .tc r) = W7 m ρ c (Proc.devRef .tc r) :=
  (W9_of_ne m ρ c r h).trans (StableHlo.after_of_writes_sub hostOps3 _ hostOps3_writes hs)

/-- Across the fifth region. -/
theorem exit4_of (r : Ref sig .tc) (h : ∀ w, Pipeline.arrRef spec4 w ≠ r) :
    W10 m ρ c (Proc.devRef .tc r) = W9 m ρ c (Proc.devRef .tc r) := W10_of_ne m ρ c r h

/-! ## The weights and biases, each where it is read -/

theorem x_at_3 : W3 m ρ c (Proc.devRef .tc main_arg0) = m ((c : Thread nD τ).loc main_arg0) :=
  entry0_of m ρ c main_arg0 (by decide) (by decide) (by decide)
theorem w1_at_3 : W3 m ρ c (Proc.devRef .tc main_arg2) = m ((c : Thread nD τ).loc main_arg2) :=
  entry0_of m ρ c main_arg2 (by decide) (by decide) (by decide)
theorem b1_at_4 : W4 m ρ c (Proc.devRef .tc main_arg3) = m ((c : Thread nD τ).loc main_arg3) :=
  (exit0_of m ρ c main_arg3 (by decide)).trans (entry0_of m ρ c main_arg3 (by decide) (by decide) (by decide))
theorem w2_at_6 : W6 m ρ c (Proc.devRef .tc main_arg4) = m ((c : Thread nD τ).loc main_arg4) :=
  (exit1_of m ρ c main_arg4 (by decide) (by decide)).trans ((exit0_of m ρ c main_arg4 (by decide)).trans
    (entry0_of m ρ c main_arg4 (by decide) (by decide) (by decide)))
theorem b2_at_7 : W7 m ρ c (Proc.devRef .tc main_arg5) = m ((c : Thread nD τ).loc main_arg5) :=
  (exit2_of m ρ c main_arg5 (by decide)).trans ((exit1_of m ρ c main_arg5 (by decide) (by decide)).trans
    ((exit0_of m ρ c main_arg5 (by decide)).trans (entry0_of m ρ c main_arg5 (by decide) (by decide) (by decide))))
theorem w3_at_9 : W9 m ρ c (Proc.devRef .tc main_arg6) = m ((c : Thread nD τ).loc main_arg6) :=
  (exit3_of m ρ c main_arg6 (by decide) (by decide)).trans ((exit2_of m ρ c main_arg6 (by decide)).trans
    ((exit1_of m ρ c main_arg6 (by decide) (by decide)).trans
      ((exit0_of m ρ c main_arg6 (by decide)).trans (entry0_of m ρ c main_arg6 (by decide) (by decide) (by decide)))))
theorem b3_at_10 : W10 m ρ c (Proc.devRef .tc main_arg7) = m ((c : Thread nD τ).loc main_arg7) :=
  (exit4_of m ρ c main_arg7 (by decide)).trans ((exit3_of m ρ c main_arg7 (by decide) (by decide)).trans
    ((exit2_of m ρ c main_arg7 (by decide)).trans ((exit1_of m ρ c main_arg7 (by decide) (by decide)).trans
      ((exit0_of m ρ c main_arg7 (by decide)).trans (entry0_of m ρ c main_arg7 (by decide) (by decide) (by decide))))))

/-! ## What the first three stretches computed, where the later stretches read it -/

/-- A buffer no segment after the first region's entry touches, at the three boundaries where a stretch reads it. -/
theorem later_of (r : Ref sig .tc) (h0 : ∀ w, Pipeline.arrRef spec0 w ≠ r) (hs1 : r ∉ hostOps1_W) (h1 : ∀ w, Pipeline.arrRef spec1 w ≠ r)
    (h2 : ∀ w, Pipeline.arrRef spec2 w ≠ r) (hs3 : r ∉ hostOps3_W) (h3 : ∀ w, Pipeline.arrRef spec3 w ≠ r) (h4 : ∀ w, Pipeline.arrRef spec4 w ≠ r) :
    W4 m ρ c (Proc.devRef .tc r) = W3 m ρ c (Proc.devRef .tc r)
    ∧ W7 m ρ c (Proc.devRef .tc r) = W3 m ρ c (Proc.devRef .tc r)
    ∧ W10 m ρ c (Proc.devRef .tc r) = W3 m ρ c (Proc.devRef .tc r) :=
  have e4 := exit0_of m ρ c r h0
  have e7 := (exit2_of m ρ c r h2).trans ((exit1_of m ρ c r hs1 h1).trans e4)
  ⟨e4, e7, (exit4_of m ρ c r h4).trans ((exit3_of m ρ c r hs3 h3).trans e7)⟩

theorem srcs_later : W4 m ρ c (Proc.devRef .tc main_v5) = W3 m ρ c (Proc.devRef .tc main_v5)
    ∧ W7 m ρ c (Proc.devRef .tc main_v5) = W3 m ρ c (Proc.devRef .tc main_v5)
    ∧ W10 m ρ c (Proc.devRef .tc main_v5) = W3 m ρ c (Proc.devRef .tc main_v5) :=
  later_of m ρ c main_v5 (by decide) (by decide) (by decide) (by decide) (by decide) (by decide) (by decide)
theorem dsts_later : W4 m ρ c (Proc.devRef .tc main_v6) = W3 m ρ c (Proc.devRef .tc main_v6)
    ∧ W7 m ρ c (Proc.devRef .tc main_v6) = W3 m ρ c (Proc.devRef .tc main_v6)
    ∧ W10 m ρ c (Proc.devRef .tc main_v6) = W3 m ρ c (Proc.devRef .tc main_v6) :=
  later_of m ρ c main_v6 (by decide) (by decide) (by decide) (by decide) (by decide) (by decide) (by decide)
theorem norm_later : W4 m ρ c (Proc.devRef .tc main_v29) = W3 m ρ c (Proc.devRef .tc main_v29)
    ∧ W7 m ρ c (Proc.devRef .tc main_v29) = W3 m ρ c (Proc.devRef .tc main_v29)
    ∧ W10 m ρ c (Proc.devRef .tc main_v29) = W3 m ρ c (Proc.devRef .tc main_v29) :=
  later_of m ρ c main_v29 (by decide) (by decide) (by decide) (by decide) (by decide) (by decide) (by decide)

end Cert.KernelIdeal.Keeps

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«146135_j41326175322384_1_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.LibRowVector.lean ====
/-
  A vector as a row, two spellings. A vector v of length b becomes the row [1, b] either by a reshape (a cast that
  keeps the row-major order) or by a broadcast that sends the vector's axis to the second axis of the row. Both
  read v(j) at the entry (0, j), so they are the same array. This is the step between a bias vector reshaped to a
  row for a kernel that adds it to every row of a block, and the same vector indexed with a new leading axis.
-/
import proofs.«146135_j41326175322384_1_alg».proof.Proof.LibVecColumn

noncomputable section

namespace Cert.LibRowVector

open Idealize.ShloMosaic Idealize.ShloMosaic.ValueIdx

/-- The broadcast of a vector [b] along a new leading unit axis reads, at (u, j), the vector at j: the vector's one
    axis is sent to the row's second axis, whose coordinate is j (and if b = 1 then j = 0 anyway). -/
theorem broadcastInDim_b_1b_apply {α : Type} {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The reshape of a vector to a row and its broadcast along a new leading axis are the same array. -/
theorem shapeCast_eq_broadcastInDim {α : Type} {b : ℕ} (x : (⟨1, ![b]⟩ : Shape).Idx → α)
    (h₁ : (⟨1, ![b]⟩ : Shape).ShapeCasts ⟨2, ![1, b]⟩)
    (h₂ : (⟨1, ![b]⟩ : Shape).BroadcastsInDim ⟨2, ![1, b]⟩ ![1]) :
    shapeCast ⟨2, ![1, b]⟩ x h₁ = broadcastInDim ⟨2, ![1, b]⟩ ![1] h₂ x := by
  funext i
  obtain ⟨u, j, rfl⟩ : ∃ (u : Fin 1) (j : Fin b), i = ix2 u j := ⟨i 0, i 1, eq_ix2 i⟩
  rw [Cert.LibVecColumn.shapeCast_b_1b_apply, broadcastInDim_b_1b_apply]

end Cert.LibRowVector

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.LinearBlock.lean ====
/-
  The matrix products of the three linear layers, read at one entry.

  Each linear region multiplies a block of 5000 rows of node features by a whole weight matrix; the host's
  specification multiplies all 50000 rows at once. On the extended reals both are the plain sum of products over
  the 128 input features:

      (x · W)(v, j) = Σ_{k < 128} x(v, k) · W(k, j).

  The kernel first narrows both operands to bf16, accumulates from the zero word, and narrows the result to bf16
  again; on the extended reals a change of format is the identity and the zero word is 0, so nothing of that
  remains in the value. This module states the sum formula four times — the host's product and the vector unit's
  product, for weight matrices of 128 and of 64 columns — from the general formula for the plain dimension
  numbers (a left operand [M, K] contracted on its second axis against the first axis of a right operand [K, N]).
-/
import proofs.«146135_j41326175322384_1_alg».proof.Proof.Gen.KernelIdeal
import proofs.«146135_j41326175322384_1_alg».proof.Proof.Spec
import proofs.«146135_j41326175322384_1_alg».proof.Proof.LibPlainDot
import Idealize.ShloMosaic.Lib.ValueIdx

noncomputable section

open scoped BigOperators

namespace Cert.KernelIdeal.RegionValue

open Cert.KernelIdeal Cert.KernelIdeal.Gen Idealize.ShloMosaic Idealize.ShloMosaic.ValueIdx

/-- The offsets (0, 0) of an access that starts at the origin of its buffer. -/
theorem origin2 : (![0, 0] : Fin 2 → Nat) = fun _ => 0 := funext fun a => by fin_cases a <;> rfl

/-! ## The host's products -/

/-- The specification's product with a 128×128 weight matrix: entry (v, j) is Σ_k x(v, k) · W(k, j). -/
theorem lin128_apply (x : S50000x128.Idx → EReal) (w : S128x128.Idx → EReal) (v : Fin 50000) (j : Fin 128) :
    Cert.Spec.lin128 (F := Ideal) x w (ix2 v j) = ∑ k : Fin 128, x (ix2 v k) * w (ix2 k j) :=
  Cert.LibPlainDot.dotGeneral_apply (M := 50000) (K := 128) (N := 128) (φ₁ := .f32) (φ₂ := .f32) none .single x w v j

/-- The specification's product with a 128×64 weight matrix: entry (v, j) is Σ_k x(v, k) · W(k, j). -/
theorem lin64_apply (x : S50000x128.Idx → EReal) (w : S128x64.Idx → EReal) (v : Fin 50000) (j : Fin 64) :
    Cert.Spec.lin64 (F := Ideal) x w (ix2 v j) = ∑ k : Fin 128, x (ix2 v k) * w (ix2 k j) :=
  Cert.LibPlainDot.dotGeneral_apply (M := 50000) (K := 128) (N := 64) (φ₁ := .f32) (φ₂ := .f32) none .single x w v j

/-! ## The vector unit's products of one block -/

/-- A block of 5000 rows times a 128×128 weight matrix, accumulated from zero: entry (r, j) is Σ_k a(r, k) · b(k, j). -/
theorem blockDot128_apply (a : FVec Ideal S5000x128 .bf16) (b : FVec Ideal S128x128 .bf16) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) :=
  Cert.LibPlainDot.matmul_zero_apply (M := 5000) (K := 128) (N := 128) none a b r j

/-- A block of 5000 rows times a 128×64 weight matrix, accumulated from zero: entry (r, j) is Σ_k a(r, k) · b(k, j). -/
theorem blockDot64_apply (a : FVec Ideal S5000x128 .bf16) (b : FVec Ideal S128x64 .bf16) (r : Fin 5000) (j : Fin 64) :
    matmul dot_S5000x128_S128x64_S5000x64_1_0_0_1_n_n none a b (constant (F := Ideal) S5000x64 .f32 0x00000000#32) (ix2 r j)
      = ∑ k : Fin 128, a (ix2 r k) * b (ix2 k j) :=
  Cert.LibPlainDot.matmul_zero_apply (M := 5000) (K := 128) (N := 64) none a b r j

end Cert.KernelIdeal.RegionValue

end
-- ==== Proof.Linear0.lean ====
/-
  Region 0: the first linear layer.

  The region walks the 50000 rows of node features in ten blocks of 5000 rows. At block t it multiplies rows
  5000·t … 5000·t + 4999 of the features by the whole 128×128 weight matrix and writes the product to the same rows
  of the result. So after the ten blocks the result array is one function of the two argument arrays,

      (v, j) ↦ Σ_{k < 128} x(v, k) · W(k, j),

  which is the specification's product of all 50000 rows at once.

  The steps: the body's payload at an entry of the block; where an entry of each block sits in its array (block
  index × block size + the coordinate inside the block); what block t writes back, as the restriction of the
  whole-array product to its rows; every row v lies in block v / 5000; hence the whole array.
-/
import proofs.«146135_j41326175322384_1_alg».proof.Proof.Gen.KernelIdeal.Frame
import proofs.«146135_j41326175322384_1_alg».proof.Proof.LinearBlock
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The payload -/

/-- The body's payload at entry (r, j) of the block: the sum over the 128 input features of the feature block's
    row r times the weight matrix's column j. The narrowing of the operands and of the result to bf16 is the
    identity on the extended reals, and the accumulator is zero. -/
theorem pay0_apply (x0 : Vec Ideal S5000x128 .f32) (x1 : Vec Ideal S128x128 .f32) (r : Fin 5000) (j : Fin 128) :
    k0_pay1 x0 x1 (ix2 r j) = ∑ k : Fin 128, x0 (ix2 r k) * x1 (ix2 k j) := by
  unfold k0_pay1
  exact blockDot128_apply (truncf .bf16 x0 bitsLt_bf16_f32) (truncf .bf16 x1 bitsLt_bf16_f32) r j

/-! ## Where the blocks sit -/

/-- The block indices at grid point t: the feature block and the result block are block (t, 0) of their arrays,
    the weight matrix is its one block (0, 0). -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the feature block at point t is row 5000·t + r of the feature array. -/
theorem xblock0_apply (c : Dev nD) (t : Fin cfg0.N) (r : Fin 5000) (k : Fin 128) (v : Fin 50000)
    (hv : v.val = t.val * 5000 + r.val) :
    (iblk0 V c 0 t : Vec Ideal S5000x128 .f32) (ix2 r k) = (V c main_arg0 : S50000x128.Idx → EReal) (ix2 v k) := by
  obtain ⟨e0, e1, -, -, -, -⟩ := blockIndex0 t
  show V c main_arg0 (((cfg0.win 0).blk t).view.emb (ix2 r k)) = V c main_arg0 (ix2 v k)
  refine congrArg (V c main_arg0) (funext fun a => Fin.ext ?_)
  match a with
  | ⟨0, _⟩ => show win0_0.index t (0 : Fin 2) * 5000 + 1 * r.val = v.val; omega
  | ⟨1, _⟩ => show win0_0.index t (1 : Fin 2) * 128 + 1 * k.val = k.val; omega

/-- The weight block at every point is the whole weight matrix. -/
theorem wblock0_apply (c : Dev nD) (t : Fin cfg0.N) (k : Fin 128) (j : Fin 128) :
    (iblk0 V c 1 t : Vec Ideal S128x128 .f32) (ix2 k j) = (V c main_arg2 : S128x128.Idx → EReal) (ix2 k j) := by
  obtain ⟨-, -, e2, e3, -, -⟩ := blockIndex0 t
  show V c main_arg2 (((cfg0.win 1).blk t).view.emb (ix2 k j)) = V c main_arg2 (ix2 k j)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * j.val = j.val; omega

/-- Entry (r, j) of the result block at point t is entry (5000·t + r, j) of the result array. -/
theorem oblock0_emb (t : Fin cfg0.N) (r : Fin 5000) (j : Fin 128) (v : Fin 50000)
    (hv : v.val = t.val * 5000 + r.val) :
    (((cfg0.win 2).blk t).view.emb (ix2 r j) : S50000x128.Idx) = ix2 v j := by
  obtain ⟨-, -, -, -, e4, e5⟩ := blockIndex0 t
  refine funext fun a => Fin.ext ?_
  match a with
  | ⟨0, _⟩ => show win0_2.index t (0 : Fin 2) * 5000 + 1 * r.val = v.val; omega
  | ⟨1, _⟩ => show win0_2.index t (1 : Fin 2) * 128 + 1 * j.val = j.val; omega

/-! ## What a point writes back -/

/-- Point t writes back block t of the whole-array product of the features and the weights as the region finds them. -/
theorem flushed0_eq (c : Dev nD) (t : Fin cfg0.N) :
    (dat0 (F := Ideal) V c).flushed 2 t
      = ((cfg0.win 2).blk t).view.read (Elt Ideal) (Cert.Spec.lin128 (F := Ideal) (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  funext y
  obtain ⟨r, j, rfl⟩ : ∃ (r : Fin 5000) (j : Fin 128), y = ix2 r j := ⟨y 0, y 1, eq_ix2 y⟩
  have hN : cfg0.N = 10 := N_0
  have ht : t.val < 10 := hN ▸ t.isLt
  obtain ⟨v, hv⟩ : ∃ v : Fin 50000, v.val = t.val * 5000 + r.val := ⟨⟨t.val * 5000 + r.val, by omega⟩, rfl⟩
  show k0_pay1 (iblk0 V c 0 t) (iblk0 V c 1 t) (ix2 r j)
    = Cert.Spec.lin128 (F := Ideal) (V c main_arg0) (V c main_arg2) (((cfg0.win 2).blk t).view.emb (ix2 r j))
  rw [pay0_apply, oblock0_emb t r j v hv, lin128_apply]
  exact Finset.sum_congr rfl fun k _ =>
    congrArg₂ (fun a b : EReal => a * b) (xblock0_apply V c t r k v hv) (wblock0_apply V c t k j)

/-! ## The cover -/

/-- An entry of the result array is in point t's block iff each coordinate is in the block's range on its axis. -/
theorem mem_oblock0 (t : Fin cfg0.N) (i : S50000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v30).slice (win0_2.rect t)).set ↔ _
  rw [View.set_slice_whole, Rect.mem_set_unit]
  exact Iff.rfl

/-- Every entry (v, j) of the result array is written back: by point v / 5000. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e4, e5⟩ := blockIndex0 t
  refine ⟨t, flush0_2 t, ?_⟩
  rw [mem_oblock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The whole array -/

/-- After the region the result array holds the product of the feature array and the weight matrix as the region
    found them: the specification's first linear layer. -/
theorem linear0 (c : Dev nD) :
    (dat0 (F := Ideal) V c).arrAt 2 cfg0.N = Cert.Spec.lin128 (F := Ideal) (V c main_arg0) (V c main_arg2) :=
  (dat0 (F := Ideal) V c).arrAt_eq_of_cover 2 _ (fun t _ => flushed0_eq V c t) covered0

end Cert.KernelIdeal.RegionValue

end
-- ==== Proof.Linear2.lean ====
/-
  Region 2: the second linear layer.

  The region walks the 50000 rows of the first hidden layer's features in ten blocks of 5000 rows. At block t it
  multiplies rows 5000·t … 5000·t + 4999 of the features by the whole 128×128 weight matrix and writes the product
  to the same rows of the result. So after the ten blocks the result array is one function of the two argument
  arrays,

      (v, j) ↦ Σ_{k < 128} x(v, k) · W(k, j),

  which is the specification's product of all 50000 rows at once.

  The steps: the body's payload at an entry of the block; where an entry of each block sits in its array (block
  index × block size + the coordinate inside the block); what block t writes back, as the restriction of the
  whole-array product to its rows; every row v lies in block v / 5000; hence the whole array.
-/
import proofs.«146135_j41326175322384_1_alg».proof.Proof.Gen.KernelIdeal.Frame
import proofs.«146135_j41326175322384_1_alg».proof.Proof.LinearBlock
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The payload -/

/-- The body's payload at entry (r, j) of the block: the sum over the 128 input features of the feature block's
    row r times the weight matrix's column j. The narrowing of the operands and of the result to bf16 is the
    identity on the extended reals, the accumulator is zero, and the body's reshape of the feature block to its own
    shape changes nothing. -/
theorem pay2_apply (x0 : Vec Ideal S5000x128 .f32) (x1 : Vec Ideal S128x128 .f32) (r : Fin 5000) (j : Fin 128) :
    k2_pay1 x0 x1 (ix2 r j) = ∑ k : Fin 128, x0 (ix2 r k) * x1 (ix2 k j) := by
  unfold k2_pay1
  rw [shapeCast_self]
  exact blockDot128_apply (truncf .bf16 x0 bitsLt_bf16_f32) (truncf .bf16 x1 bitsLt_bf16_f32) r j

/-! ## Where the blocks sit -/

/-- The block indices at grid point t: the feature block and the result block are block (t, 0) of their arrays,
    the weight matrix is its one block (0, 0). -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of the feature block at point t is row 5000·t + r of the feature array. -/
theorem xblock2_apply (c : Dev nD) (t : Fin cfg2.N) (r : Fin 5000) (k : Fin 128) (v : Fin 50000)
    (hv : v.val = t.val * 5000 + r.val) :
    (iblk2 V c 0 t : Vec Ideal S5000x128 .f32) (ix2 r k) = (V c main_v46 : S50000x128.Idx → EReal) (ix2 v k) := by
  obtain ⟨e0, e1, -, -, -, -⟩ := blockIndex2 t
  show V c main_v46 (((cfg2.win 0).blk t).view.emb (ix2 r k)) = V c main_v46 (ix2 v k)
  refine congrArg (V c main_v46) (funext fun a => Fin.ext ?_)
  match a with
  | ⟨0, _⟩ => show win2_0.index t (0 : Fin 2) * 5000 + 1 * r.val = v.val; omega
  | ⟨1, _⟩ => show win2_0.index t (1 : Fin 2) * 128 + 1 * k.val = k.val; omega

/-- The weight block at every point is the whole weight matrix. -/
theorem wblock2_apply (c : Dev nD) (t : Fin cfg2.N) (k : Fin 128) (j : Fin 128) :
    (iblk2 V c 1 t : Vec Ideal S128x128 .f32) (ix2 k j) = (V c main_arg4 : S128x128.Idx → EReal) (ix2 k j) := by
  obtain ⟨-, -, e2, e3, -, -⟩ := blockIndex2 t
  show V c main_arg4 (((cfg2.win 1).blk t).view.emb (ix2 k j)) = V c main_arg4 (ix2 k j)
  refine congrArg (V c main_arg4) (funext fun a => Fin.ext ?_)
  match a with
  | ⟨0, _⟩ => show win2_1.index t (0 : Fin 2) * 128 + 1 * k.val = k.val; omega
  | ⟨1, _⟩ => show win2_1.index t (1 : Fin 2) * 128 + 1 * j.val = j.val; omega

/-- Entry (r, j) of the result block at point t is entry (5000·t + r, j) of the result array. -/
theorem oblock2_emb (t : Fin cfg2.N) (r : Fin 5000) (j : Fin 128) (v : Fin 50000)
    (hv : v.val = t.val * 5000 + r.val) :
    (((cfg2.win 2).blk t).view.emb (ix2 r j) : S50000x128.Idx) = ix2 v j := by
  obtain ⟨-, -, -, -, e4, e5⟩ := blockIndex2 t
  refine funext fun a => Fin.ext ?_
  match a with
  | ⟨0, _⟩ => show win2_2.index t (0 : Fin 2) * 5000 + 1 * r.val = v.val; omega
  | ⟨1, _⟩ => show win2_2.index t (1 : Fin 2) * 128 + 1 * j.val = j.val; omega

/-! ## What a point writes back -/

/-- Point t writes back block t of the whole-array product of the features and the weights as the region finds them. -/
theorem flushed2_eq (c : Dev nD) (t : Fin cfg2.N) :
    (dat2 (F := Ideal) V c).flushed 2 t
      = ((cfg2.win 2).blk t).view.read (Elt Ideal) (Cert.Spec.lin128 (F := Ideal) (V c main_v46) (V c main_arg4)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  funext y
  obtain ⟨r, j, rfl⟩ : ∃ (r : Fin 5000) (j : Fin 128), y = ix2 r j := ⟨y 0, y 1, eq_ix2 y⟩
  have hN : cfg2.N = 10 := N_2
  have ht : t.val < 10 := hN ▸ t.isLt
  obtain ⟨v, hv⟩ : ∃ v : Fin 50000, v.val = t.val * 5000 + r.val := ⟨⟨t.val * 5000 + r.val, by omega⟩, rfl⟩
  show k2_pay1 (iblk2 V c 0 t) (iblk2 V c 1 t) (ix2 r j)
    = Cert.Spec.lin128 (F := Ideal) (V c main_v46) (V c main_arg4) (((cfg2.win 2).blk t).view.emb (ix2 r j))
  rw [pay2_apply, oblock2_emb t r j v hv, lin128_apply]
  exact Finset.sum_congr rfl fun k _ =>
    congrArg₂ (fun a b : EReal => a * b) (xblock2_apply V c t r k v hv) (wblock2_apply V c t k j)

/-! ## The cover -/

/-- An entry of the result array is in point t's block iff each coordinate is in the block's range on its axis. -/
theorem mem_oblock2 (t : Fin cfg2.N) (i : S50000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v47).slice (win2_2.rect t)).set ↔ _
  rw [View.set_slice_whole, Rect.mem_set_unit]
  exact Iff.rfl

/-- Every entry (v, j) of the result array is written back: by point v / 5000. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, e4, e5⟩ := blockIndex2 t
  refine ⟨t, flush2_2 t, ?_⟩
  rw [mem_oblock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-! ## The whole array -/

/-- After the region the result array holds the product of the feature array and the weight matrix as the region
    found them: the specification's second linear layer. -/
theorem linear2 (c : Dev nD) :
    (dat2 (F := Ideal) V c).arrAt 2 cfg2.N = Cert.Spec.lin128 (F := Ideal) (V c main_v46) (V c main_arg4) :=
  (dat2 (F := Ideal) V c).arrAt_eq_of_cover 2 _ (fun t _ => flushed2_eq V c t) covered2

end Cert.KernelIdeal.RegionValue

end
-- ==== Proof.Linear4.lean ====
/-
  Region 4: the third linear layer.

  The region walks the 50000 rows of the second hidden layer's features in ten blocks of 5000 rows. At block t it
  multiplies rows 5000·t … 5000·t + 4999 of the features by the whole 128×64 weight matrix and writes the product
  to the same rows of the result. So after the ten blocks the result array is one function of the two argument
  arrays,

      (v, j) ↦ Σ_{k < 128} x(v, k) · W(k, j),

  which is the specification's product of all 50000 rows at once.

  The steps: the body's payload at an entry of the block; where an entry of each block sits in its array (block
  index × block size + the coordinate inside the block); what block t writes back, as the restriction of the
  whole-array product to its rows; every row v lies in block v / 5000; hence the whole array.
-/
import proofs.«146135_j41326175322384_1_alg».proof.Proof.Gen.KernelIdeal.Frame
import proofs.«146135_j41326175322384_1_alg».proof.Proof.LinearBlock
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The payload -/

/-- The body's payload at entry (r, j) of the block: the sum over the 128 input features of the feature block's
    row r times the weight matrix's column j. The narrowing of the operands and of the result to bf16 is the
    identity on the extended reals, the accumulator is zero, and the body's reshape of the feature block to its own
    shape changes nothing. -/
theorem pay4_apply (x0 : Vec Ideal S5000x128 .f32) (x1 : Vec Ideal S128x64 .f32) (r : Fin 5000) (j : Fin 64) :
    k4_pay1 x0 x1 (ix2 r j) = ∑ k : Fin 128, x0 (ix2 r k) * x1 (ix2 k j) := by
  unfold k4_pay1
  rw [shapeCast_self]
  exact blockDot64_apply (truncf .bf16 x0 bitsLt_bf16_f32) (truncf .bf16 x1 bitsLt_bf16_f32) r j

/-! ## Where the blocks sit -/

/-- The block indices at grid point t: the feature block and the result block are block (t, 0) of their arrays,
    the weight matrix is its one block (0, 0). -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row r of the feature block at point t is row 5000·t + r of the feature array. -/
theorem xblock4_apply (c : Dev nD) (t : Fin cfg4.N) (r : Fin 5000) (k : Fin 128) (v : Fin 50000)
    (hv : v.val = t.val * 5000 + r.val) :
    (iblk4 V c 0 t : Vec Ideal S5000x128 .f32) (ix2 r k) = (V c main_v63 : S50000x128.Idx → EReal) (ix2 v k) := by
  obtain ⟨e0, e1, -, -, -, -⟩ := blockIndex4 t
  show V c main_v63 (((cfg4.win 0).blk t).view.emb (ix2 r k)) = V c main_v63 (ix2 v k)
  refine congrArg (V c main_v63) (funext fun a => Fin.ext ?_)
  match a with
  | ⟨0, _⟩ => show win4_0.index t (0 : Fin 2) * 5000 + 1 * r.val = v.val; omega
  | ⟨1, _⟩ => show win4_0.index t (1 : Fin 2) * 128 + 1 * k.val = k.val; omega

/-- The weight block at every point is the whole weight matrix. -/
theorem wblock4_apply (c : Dev nD) (t : Fin cfg4.N) (k : Fin 128) (j : Fin 64) :
    (iblk4 V c 1 t : Vec Ideal S128x64 .f32) (ix2 k j) = (V c main_arg6 : S128x64.Idx → EReal) (ix2 k j) := by
  obtain ⟨-, -, e2, e3, -, -⟩ := blockIndex4 t
  show V c main_arg6 (((cfg4.win 1).blk t).view.emb (ix2 k j)) = V c main_arg6 (ix2 k j)
  refine congrArg (V c main_arg6) (funext fun a => Fin.ext ?_)
  match a with
  | ⟨0, _⟩ => show win4_1.index t (0 : Fin 2) * 128 + 1 * k.val = k.val; omega
  | ⟨1, _⟩ => show win4_1.index t (1 : Fin 2) * 64 + 1 * j.val = j.val; omega

/-- Entry (r, j) of the result block at point t is entry (5000·t + r, j) of the result array. -/
theorem oblock4_emb (t : Fin cfg4.N) (r : Fin 5000) (j : Fin 64) (v : Fin 50000)
    (hv : v.val = t.val * 5000 + r.val) :
    (((cfg4.win 2).blk t).view.emb (ix2 r j) : S50000x64.Idx) = ix2 v j := by
  obtain ⟨-, -, -, -, e4, e5⟩ := blockIndex4 t
  refine funext fun a => Fin.ext ?_
  match a with
  | ⟨0, _⟩ => show win4_2.index t (0 : Fin 2) * 5000 + 1 * r.val = v.val; omega
  | ⟨1, _⟩ => show win4_2.index t (1 : Fin 2) * 64 + 1 * j.val = j.val; omega

/-! ## What a point writes back -/

/-- Point t writes back block t of the whole-array product of the features and the weights as the region finds them. -/
theorem flushed4_eq (c : Dev nD) (t : Fin cfg4.N) :
    (dat4 (F := Ideal) V c).flushed 2 t
      = ((cfg4.win 2).blk t).view.read (Elt Ideal) (Cert.Spec.lin64 (F := Ideal) (V c main_v63) (V c main_arg6)) := by
  show (cfg4.win 2).cut (grid4.coords t) ((dat4 V c).after 2 t) = _
  rw [after4_2]
  unfold out4_2
  rw [View.canon_unit_zero origin2]
  simp only [View.ld_unit_zero (S := S5000x128) origin2, View.ld_unit_zero (S := S128x64) origin2]
  funext y
  obtain ⟨r, j, rfl⟩ : ∃ (r : Fin 5000) (j : Fin 64), y = ix2 r j := ⟨y 0, y 1, eq_ix2 y⟩
  have hN : cfg4.N = 10 := N_4
  have ht : t.val < 10 := hN ▸ t.isLt
  obtain ⟨v, hv⟩ : ∃ v : Fin 50000, v.val = t.val * 5000 + r.val := ⟨⟨t.val * 5000 + r.val, by omega⟩, rfl⟩
  show k4_pay1 (iblk4 V c 0 t) (iblk4 V c 1 t) (ix2 r j)
    = Cert.Spec.lin64 (F := Ideal) (V c main_v63) (V c main_arg6) (((cfg4.win 2).blk t).view.emb (ix2 r j))
  rw [pay4_apply, oblock4_emb t r j v hv, lin64_apply]
  exact Finset.sum_congr rfl fun k _ =>
    congrArg₂ (fun a b : EReal => a * b) (xblock4_apply V c t r k v hv) (wblock4_apply V c t k j)

/-! ## The cover -/

/-- An entry of the result array is in point t's block iff each coordinate is in the block's range on its axis. -/
theorem mem_oblock4 (t : Fin cfg4.N) (i : S50000x64.Idx) :
    i ∈ ((cfg4.win 2).blk t).view.set
      ↔ ∀ a : Fin 2, win4_2.index t a * S5000x64.size a ≤ (i a).val
          ∧ (i a).val < win4_2.index t a * S5000x64.size a + S5000x64.size a := by
  show i ∈ ((View.whole main_v64).slice (win4_2.rect t)).set ↔ _
  rw [View.set_slice_whole, Rect.mem_set_unit]
  exact Iff.rfl

/-- Every entry (v, j) of the result array is written back: by point v / 5000. -/
theorem covered4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, e4, e5⟩ := blockIndex4 t
  refine ⟨t, flush4_2 t, ?_⟩
  rw [mem_oblock4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-! ## The whole array -/

/-- After the region the result array holds the product of the feature array and the weight matrix as the region
    found them: the specification's third linear layer. -/
theorem linear4 (c : Dev nD) :
    (dat4 (F := Ideal) V c).arrAt 2 cfg4.N = Cert.Spec.lin64 (F := Ideal) (V c main_v63) (V c main_arg6) :=
  (dat4 (F := Ideal) V c).arrAt_eq_of_cover 2 _ (fun t _ => flushed4_eq V c t) covered4

end Cert.KernelIdeal.RegionValue

end
-- ==== Proof.LibBiasRow.lean ====
/-
  One row added to every row of a matrix, read entry by entry, in the two spellings the host program uses:
  `broadcast_in_dim` of a row [1, b] along both axes of [a, b] reads, at (v, q), the row's entry (0, q); and
  `broadcast_in_dim` of a scalar (no axes) reads the scalar at every entry. With these, "add the row, then take the
  maximum with the scalar 0" is a formula per entry.
-/
import Idealize.ShloMosaic.Lib.ValueLayout
import Idealize.ShloMosaic.PureOps.Ideal.Laws

noncomputable section

namespace Cert.LibBiasRow

open Idealize.ShloMosaic Idealize.ShloMosaic.ValueIdx

/-- The two zero offsets of an access to a whole block, as a constant function. -/
theorem zero_offsets : (![0, 0] : Fin 2 → Nat) = fun _ => 0 := funext fun a => by fin_cases a <;> rfl

/-- A row [1, b] sent to [a, b] with its axes kept in place reads, at (v, q), the row at (0, q): the row's first axis
    has extent 1, so its coordinate is 0; its second axis carries q (and if b = 1 then q = 0 anyway). -/
theorem broadcastInDim_1b_ab_apply {α : Type} {a b : ℕ} (r : (⟨2, ![1, b]⟩ : Shape).Idx → α)
    (h : (⟨2, ![1, b]⟩ : Shape).BroadcastsInDim ⟨2, ![a, b]⟩ ![0, 1]) (v : Fin a) (q : Fin b) :
    broadcastInDim ⟨2, ![a, b]⟩ ![0, 1] h r (ix2 v q) = r (ix2 (0 : Fin 1) q) := by
  refine broadcastInDim_apply _ h r (ix2 v q) (ix2 (0 : Fin 1) q) fun ax => ?_
  match ax with
  | ⟨0, _⟩ => rfl
  | ⟨1, _⟩ =>
    show q.val = if b = 1 then 0 else q.val
    split
    · have := q.isLt; omega
    · rfl

/-- A scalar sent to any shape reads the scalar at every entry. -/
theorem broadcastInDim_scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The scalar zero of the host program, sent to any shape, is the number 0 at every entry. -/
theorem broadcastInDim_zero_apply {t : Shape} (h : (⟨0, ![]⟩ : Shape).BroadcastsInDim t ![]) (j : t.Idx) :
    broadcastInDim t ![] h (constant (F := Ideal) ⟨0, ![]⟩ .f32 0x00000000#32) j = (0 : EReal) := by
  rw [broadcastInDim_scalar_apply, constant_apply]
  exact Ideal.ofBits_zero_f32

end Cert.LibBiasRow

end
-- ==== Proof.Bias1.lean ====
import proofs.«146135_j41326175322384_1_alg».proof.Proof.Gen.KernelIdeal.Frame
import proofs.«146135_j41326175322384_1_alg».proof.Proof.Spec
import proofs.«146135_j41326175322384_1_alg».proof.Proof.LibBiasRow
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

open Cert.LibBiasRow

/-! # Region 1: max(a + row, 0), block by block, is one function of the whole arrays

The region adds the one row `r` ([1,128]) to every row of `a` ([50000,128]) and takes the maximum with 0. Its grid has 10 points; point `t`
reads rows `5000 t … 5000 t + 4999` of `a`, the whole of `r`, and writes the same rows of the result. Entry `(p, q)`
of what point `t` writes is `max (a (5000 t + p, q) + r (0, q)) 0`, which is entry `(5000 t + p, q)` of
`relu128 (addRow128 a r)`; the ten blocks cover the 50000 rows, so the array ends holding that function. -/

/-- THE BODY AT AN ENTRY: the two shape casts keep the shape (they are identities), the row vector is broadcast over
    the 5000 rows (entry `(p, q)` reads `(0, q)`), the splat constant is the zero word, which is the number 0. -/
theorem pay1_apply (x0 : Vec Ideal S5000x128 .f32) (x1 : Vec Ideal S1x128 .f32) (p : Fin 5000) (q : Fin 128) :
    k1_pay1 x0 x1 (ix2 p q) = max (x0 (ix2 p q) + x1 (ix2 (0 : Fin 1) q)) 0 := by
  unfold k1_pay1
  rw [shapeCast_self, shapeCast_self, maximumf_apply, addf_apply, broadcast_apply, broadcastTo_1b_ab_apply]
  exact congrArg (max _) Ideal.ofBits_zero_f32

/-- THE WHOLE-ARRAY FUNCTION AT AN ENTRY: `broadcast_in_dim` of the row along both axes reads `(0, q)` at `(v, q)`,
    the scalar zero sent to every entry is 0, and addition and maximum are entry by entry. -/
theorem spec1_apply (a : Cert.Spec.F32 Ideal S50000x128) (r : Cert.Spec.F32 Ideal S1x128) (v : Fin 50000) (q : Fin 128) :
    Cert.Spec.relu128 (F := Ideal) (Cert.Spec.addRow128 a r) (ix2 v q) = max (a (ix2 v q) + r (ix2 (0 : Fin 1) q)) 0 := by
  unfold Cert.Spec.relu128 Cert.Spec.addRow128
  rw [maximumf_apply, addf_apply, broadcastInDim_1b_ab_apply, broadcastInDim_zero_apply]

/-- ONE ENTRY OF ONE BLOCK: if the block of `a` holds at `y` what `a` holds at `i`, the row block holds the row `r`,
    and `y` and `i` are in the same column, then the body's result at `y` is the whole-array function at `i`. -/
theorem point1 (A : Cert.Spec.F32 Ideal S50000x128) (R : Cert.Spec.F32 Ideal S1x128)
    (x0 : Vec Ideal S5000x128 .f32) (x1 : Vec Ideal S1x128 .f32) (y : S5000x128.Idx) (i : S50000x128.Idx)
    (h0 : x0 y = A i) (h1 : ∀ q : Fin 128, x1 (ix2 (0 : Fin 1) q) = R (ix2 (0 : Fin 1) q)) (hi : (i 1).val = (y 1).val) :
    k1_pay1 x0 x1 y = Cert.Spec.relu128 (F := Ideal) (Cert.Spec.addRow128 A R) i := by
  obtain ⟨p, q, rfl⟩ : ∃ (p : Fin 5000) (q : Fin 128), y = ix2 p q := ⟨y 0, y 1, eq_ix2 y⟩
  obtain ⟨v, q', rfl⟩ : ∃ (v : Fin 50000) (q' : Fin 128), i = ix2 v q' := ⟨i 0, i 1, eq_ix2 i⟩
  obtain rfl : q' = q := Fin.ext hi
  rw [pay1_apply, spec1_apply, h0, h1]

/-- THE BLOCK INDICES, decided over the 10 grid points: the blocks of `a` and of the result are block `(t, 0)`, the
    row's block is always `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole-array function of the two arrays as the region finds them.
    A block's element at `j` sits in the array at block index × block size + 1 × `j`, axis by axis: for `a` and for the
    result that is `(5000 t + j₀, j₁)`, for the row it is `(0, q)`. -/
theorem flushed1_eq (c : Dev nD) (t : Fin cfg1.N) :
    (dat1 (F := Ideal) V c).flushed 2 t
      = ((cfg1.win 2).blk t).view.read (Elt Ideal) (Cert.Spec.relu128 (F := Ideal) (Cert.Spec.addRow128 (V c main_v44) (V c main_v45))) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e00, e01, e10, e11, e20, e21⟩ := idx1 t
  funext j
  show k1_pay1 (iblk1 V c 0 t) (iblk1 V c 1 t) j
    = Cert.Spec.relu128 (F := Ideal) (Cert.Spec.addRow128 (V c main_v44) (V c main_v45)) (((cfg1.win 2).blk t).view.emb j)
  refine point1 _ _ _ _ j _ ?_ (fun q => ?_) ?_
  · show V c main_v44 (((cfg1.win 0).blk t).view.emb j) = V c main_v44 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show V c main_v45 (((cfg1.win 1).blk t).view.emb (ix2 (0 : Fin 1) q)) = V c main_v45 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show win1_2.index t (1 : Fin 2) * 128 + 1 * (j 1).val = (j 1).val; omega

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- THE BLOCKS COVER THE ARRAY: row `v` is in the block of point `v / 5000` (10 × 5000 = 50000 rows, all 128 columns
    in every block), and every point writes its block back. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, e20, e21⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE RESULT ARRAY after the region: the whole-array function of the two arrays the region finds. -/
theorem bias1 (c : Dev nD) :
    (dat1 (F := Ideal) V c).arrAt 2 cfg1.N = Cert.Spec.relu128 (F := Ideal) (Cert.Spec.addRow128 (V c main_v44) (V c main_v45)) :=
  (dat1 V c).arrAt_eq_of_cover 2 _ (fun t _ => flushed1_eq V c t) cover1

end Cert.KernelIdeal.RegionValue

end
-- ==== Proof.Bias3.lean ====
import proofs.«146135_j41326175322384_1_alg».proof.Proof.Gen.KernelIdeal.Frame
import proofs.«146135_j41326175322384_1_alg».proof.Proof.Spec
import proofs.«146135_j41326175322384_1_alg».proof.Proof.LibBiasRow
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

open Cert.LibBiasRow

/-! # Region 3: max(a + row, 0), block by block, is one function of the whole arrays

The region adds the one row `r` ([1,128]) to every row of `a` ([50000,128]) and takes the maximum with 0. Its grid has 10 points; point `t`
reads rows `5000 t … 5000 t + 4999` of `a`, the whole of `r`, and writes the same rows of the result. Entry `(p, q)`
of what point `t` writes is `max (a (5000 t + p, q) + r (0, q)) 0`, which is entry `(5000 t + p, q)` of
`relu128 (addRow128 a r)`; the ten blocks cover the 50000 rows, so the array ends holding that function. -/

/-- THE BODY AT AN ENTRY: the two shape casts keep the shape (they are identities), the row vector is broadcast over
    the 5000 rows (entry `(p, q)` reads `(0, q)`), the splat constant is the zero word, which is the number 0. -/
theorem pay3_apply (x0 : Vec Ideal S5000x128 .f32) (x1 : Vec Ideal S1x128 .f32) (p : Fin 5000) (q : Fin 128) :
    k3_pay1 x0 x1 (ix2 p q) = max (x0 (ix2 p q) + x1 (ix2 (0 : Fin 1) q)) 0 := by
  unfold k3_pay1
  rw [shapeCast_self, shapeCast_self, maximumf_apply, addf_apply, broadcast_apply, broadcastTo_1b_ab_apply]
  exact congrArg (max _) Ideal.ofBits_zero_f32

/-- THE WHOLE-ARRAY FUNCTION AT AN ENTRY: `broadcast_in_dim` of the row along both axes reads `(0, q)` at `(v, q)`,
    the scalar zero sent to every entry is 0, and addition and maximum are entry by entry. -/
theorem spec3_apply (a : Cert.Spec.F32 Ideal S50000x128) (r : Cert.Spec.F32 Ideal S1x128) (v : Fin 50000) (q : Fin 128) :
    Cert.Spec.relu128 (F := Ideal) (Cert.Spec.addRow128 a r) (ix2 v q) = max (a (ix2 v q) + r (ix2 (0 : Fin 1) q)) 0 := by
  unfold Cert.Spec.relu128 Cert.Spec.addRow128
  rw [maximumf_apply, addf_apply, broadcastInDim_1b_ab_apply, broadcastInDim_zero_apply]

/-- ONE ENTRY OF ONE BLOCK: if the block of `a` holds at `y` what `a` holds at `i`, the row block holds the row `r`,
    and `y` and `i` are in the same column, then the body's result at `y` is the whole-array function at `i`. -/
theorem point3 (A : Cert.Spec.F32 Ideal S50000x128) (R : Cert.Spec.F32 Ideal S1x128)
    (x0 : Vec Ideal S5000x128 .f32) (x1 : Vec Ideal S1x128 .f32) (y : S5000x128.Idx) (i : S50000x128.Idx)
    (h0 : x0 y = A i) (h1 : ∀ q : Fin 128, x1 (ix2 (0 : Fin 1) q) = R (ix2 (0 : Fin 1) q)) (hi : (i 1).val = (y 1).val) :
    k3_pay1 x0 x1 y = Cert.Spec.relu128 (F := Ideal) (Cert.Spec.addRow128 A R) i := by
  obtain ⟨p, q, rfl⟩ : ∃ (p : Fin 5000) (q : Fin 128), y = ix2 p q := ⟨y 0, y 1, eq_ix2 y⟩
  obtain ⟨v, q', rfl⟩ : ∃ (v : Fin 50000) (q' : Fin 128), i = ix2 v q' := ⟨i 0, i 1, eq_ix2 i⟩
  obtain rfl : q' = q := Fin.ext hi
  rw [pay3_apply, spec3_apply, h0, h1]

/-- THE BLOCK INDICES, decided over the 10 grid points: the blocks of `a` and of the result are block `(t, 0)`, the
    row's block is always `(0, 0)`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is block `t` of the whole-array function of the two arrays as the region finds them.
    A block's element at `j` sits in the array at block index × block size + 1 × `j`, axis by axis: for `a` and for the
    result that is `(5000 t + j₀, j₁)`, for the row it is `(0, q)`. -/
theorem flushed3_eq (c : Dev nD) (t : Fin cfg3.N) :
    (dat3 (F := Ideal) V c).flushed 2 t
      = ((cfg3.win 2).blk t).view.read (Elt Ideal) (Cert.Spec.relu128 (F := Ideal) (Cert.Spec.addRow128 (V c main_v61) (V c main_v62))) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e00, e01, e10, e11, e20, e21⟩ := idx3 t
  funext j
  show k3_pay1 (iblk3 V c 0 t) (iblk3 V c 1 t) j
    = Cert.Spec.relu128 (F := Ideal) (Cert.Spec.addRow128 (V c main_v61) (V c main_v62)) (((cfg3.win 2).blk t).view.emb j)
  refine point3 _ _ _ _ j _ ?_ (fun q => ?_) ?_
  · show V c main_v61 (((cfg3.win 0).blk t).view.emb j) = V c main_v61 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · show V c main_v62 (((cfg3.win 1).blk t).view.emb (ix2 (0 : Fin 1) q)) = V c main_v62 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show win3_2.index t (1 : Fin 2) * 128 + 1 * (j 1).val = (j 1).val; omega

/-- An index of the result array is in point `t`'s block iff each coordinate is in the block's range on its axis. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- THE BLOCKS COVER THE ARRAY: row `v` is in the block of point `v / 5000` (10 × 5000 = 50000 rows, all 128 columns
    in every block), and every point writes its block back. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 :=
    ⟨⟨(i 0).val / 5000, by show (i 0).val / 5000 < grid3.N; omega⟩, rfl⟩
  obtain ⟨-, -, -, -, e20, e21⟩ := idx3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE RESULT ARRAY after the region: the whole-array function of the two arrays the region finds. -/
theorem bias3 (c : Dev nD) :
    (dat3 (F := Ideal) V c).arrAt 2 cfg3.N = Cert.Spec.relu128 (F := Ideal) (Cert.Spec.addRow128 (V c main_v61) (V c main_v62)) :=
  (dat3 V c).arrAt_eq_of_cover 2 _ (fun t _ => flushed3_eq V c t) cover3

end Cert.KernelIdeal.RegionValue

end
-- ==== Proof.Bias5.lean ====
import proofs.«146135_j41326175322384_1_alg».proof.Proof.Gen.KernelIdeal.Frame
import proofs.«146135_j41326175322384_1_alg».proof.Proof.Spec
import proofs.«146135_j41326175322384_1_alg».proof.Proof.LibBiasRow
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

open Cert.LibBiasRow

/-! # Region 5: a + row, block by block, is one function of the whole arrays

The region adds the one row `r` ([1,64]) to every row of `a` ([50000,64]). Its grid has 10 points; point `t`
reads rows `5000 t … 5000 t + 4999` of `a`, the whole of `r`, and writes the same rows of the result. Entry `(p, q)`
of what point `t` writes is `a (5000 t + p, q) + r (0, q)`, which is entry `(5000 t + p, q)` of
`addRow64 a r`; the ten blocks cover the 50000 rows, so the array ends holding that function. -/

/-- THE BODY AT AN ENTRY: the two shape casts keep the shape (they are identities) and the row vector is broadcast
    over the 5000 rows (entry `(p, q)` reads `(0, q)`). -/
theorem pay5_apply (x0 : Vec Ideal S5000x64 .f32) (x1 : Vec Ideal S1x64 .f32) (p : Fin 5000) (q : Fin 64) :
    k5_pay1 x0 x1 (ix2 p q) = x0 (ix2 p q) + x1 (ix2 (0 : Fin 1) q) := by
  unfold k5_pay1
  rw [shapeCast_self, shapeCast_self, addf_apply, broadcastTo_1b_ab_apply]

/-- THE WHOLE-ARRAY FUNCTION AT AN ENTRY: `broadcast_in_dim` of the row along both axes reads `(0, q)` at `(v, q)`,
    and addition is entry by entry. -/
theorem spec5_apply (a : Cert.Spec.F32 Ideal S50000x64) (r : Cert.Spec.F32 Ideal S1x64) (v : Fin 50000) (q : Fin 64) :
    Cert.Spec.addRow64 (F := Ideal) a r (ix2 v q) = a (ix2 v q) + r (ix2 (0 : Fin 1) q) := by
  unfold Cert.Spec.addRow64
  rw [addf_apply, broadcastInDim_1b_ab_apply]

/-- ONE ENTRY OF ONE BLOCK: if the block of `a` holds at `y` what `a` holds at `i`, the row block holds the row `r`,
    and `y` and `i` are in the same column, then the body's result at `y` is the whole-array function at `i`. -/
theorem point5 (A : Cert.Spec.F32 Ideal S50000x64) (R : Cert.Spec.F32 Ideal S1x64)
    (x0 : Vec Ideal S5000x64 .f32) (x1 : Vec Ideal S1x64 .f32) (y : S5000x64.Idx) (i : S50000x64.Idx)
    (h0 : x0 y = A i) (h1 : ∀ q : Fin 64, x1 (ix2 (0 : Fin 1) q) = R (ix2 (0 : Fin 1) q)) (hi : (i 1).val = (y 1).val) :
    k5_pay1 x0 x1 y = Cert.Spec.addRow64 (F := Ideal) A R i := by
  obtain ⟨p, q, rfl⟩ : ∃ (p : Fin 5000) (q : Fin 64), y = ix2 p q := ⟨y 0, y 1, eq_ix2 y⟩
  obtain ⟨v, q', rfl⟩ : ∃ (v : Fin 50000) (q' : Fin 64), i = ix2 v q' := ⟨i 0, i 1, eq_ix2 i⟩
  obtain rfl : q' = q := Fin.ext hi
  rw [pay5_apply, spec5_apply, h0, h1]

/-- THE BLOCK INDICES, decided over the 10 grid points: the blocks of `a` and of the result are block `(t, 0)`, the
    row's block is always `(0, 0)`. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- WHAT POINT `t` WRITES BACK is block `t` of the whole-array function of the two arrays as the region finds them.
    A block's element at `j` sits in the array at block index × block size + 1 × `j`, axis by axis: for `a` and for the
    result that is `(5000 t + j₀, j₁)`, for the row it is `(0, q)`. -/
theorem flushed5_eq (c : Dev nD) (t : Fin cfg5.N) :
    (dat5 (F := Ideal) V c).flushed 2 t
      = ((cfg5.win 2).blk t).view.read (Elt Ideal) (Cert.Spec.addRow64 (F := Ideal) (V c main_v78) (V c main_v79)) := by
  show (cfg5.win 2).cut (grid5.coords t) ((dat5 V c).after 2 t) = _
  rw [after5_2]
  unfold out5_2
  rw [View.canon_unit_zero zero_offsets]
  simp only [View.ld_unit_zero (S := S5000x64) zero_offsets, View.ld_unit_zero (S := S1x64) zero_offsets]
  obtain ⟨e00, e01, e10, e11, e20, e21⟩ := idx5 t
  funext j
  show k5_pay1 (iblk5 V c 0 t) (iblk5 V c 1 t) j
    = Cert.Spec.addRow64 (F := Ideal) (V c main_v78) (V c main_v79) (((cfg5.win 2).blk t).view.emb j)
  refine point5 _ _ _ _ j _ ?_ (fun q => ?_) ?_
  · show V c main_v78 (((cfg5.win 0).blk t).view.emb j) = V c main_v78 (((cfg5.win 2).blk t).view.emb j)
    refine congrArg _ (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  · show V c main_v79 (((cfg5.win 1).blk t).view.emb (ix2 (0 : Fin 1) q)) = V c main_v79 (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  · show win5_2.index t (1 : Fin 2) * 64 + 1 * (j 1).val = (j 1).val; omega

/-- An index of the result array is in point `t`'s block iff each coordinate is in the block's range on its axis. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v80).slice (win5_2.rect t)).set ↔ _
  rw [View.set_slice_whole, Rect.mem_set_unit]
  exact Iff.rfl

/-- THE BLOCKS COVER THE ARRAY: row `v` is in the block of point `v / 5000` (10 × 5000 = 50000 rows, all 64 columns
    in every block), and every point writes its block back. -/
theorem cover5 (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have hN : grid5.N = 10 := N_5
  obtain ⟨t, ht⟩ : ∃ t : Fin cfg5.N, t.val = (i 0).val / 5000 :=
    ⟨⟨(i 0).val / 5000, by show (i 0).val / 5000 < grid5.N; omega⟩, rfl⟩
  obtain ⟨-, -, -, -, e20, e21⟩ := idx5 t
  refine ⟨t, flush5_2 t, ?_⟩
  rw [mem_blk5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- THE RESULT ARRAY after the region: the whole-array function of the two arrays the region finds. -/
theorem bias5 (c : Dev nD) :
    (dat5 (F := Ideal) V c).arrAt 2 cfg5.N = Cert.Spec.addRow64 (F := Ideal) (V c main_v78) (V c main_v79) :=
  (dat5 V c).arrAt_eq_of_cover 2 _ (fun t _ => flushed5_eq V c t) cover5

end Cert.KernelIdeal.RegionValue

end
-- ==== Proof.KernelValue.lean ====
/-
  The value the idealized kernel's program leaves in its result buffer, on the extended reals: the specification's
  network of the eight argument arrays as launched.

  The program alternates host stretches and regions. Walking from the launch: the first three stretches compute the
  messages' sources, destinations and weights from the edge list; then, three times, a region multiplies the current
  node features by a weight matrix (one block of 5000 rows per grid point; all ten blocks are the whole product), a
  host stretch gathers the product's rows along the messages, scales them by the weights and scatter-adds them to the
  destinations, and a region adds the bias row to every row (and, in the first two layers, takes the maximum with 0).
  Each step's result is the specification's operation of the previous step's, so the result buffer ends at the
  specification's three-layer composition.
-/
import proofs.«146135_j41326175322384_1_alg».proof.Proof.Gen.KernelIdeal.Frame
import proofs.«146135_j41326175322384_1_alg».proof.Proof.Spec
import proofs.«146135_j41326175322384_1_alg».proof.Proof.Stages
import proofs.«146135_j41326175322384_1_alg».proof.Proof.Keeps
import proofs.«146135_j41326175322384_1_alg».proof.Proof.LibRowVector
import proofs.«146135_j41326175322384_1_alg».proof.Proof.Linear0
import proofs.«146135_j41326175322384_1_alg».proof.Proof.Linear2
import proofs.«146135_j41326175322384_1_alg».proof.Proof.Linear4
import proofs.«146135_j41326175322384_1_alg».proof.Proof.Bias1
import proofs.«146135_j41326175322384_1_alg».proof.Proof.Bias3
import proofs.«146135_j41326175322384_1_alg».proof.Proof.Bias5
import Idealize.ShloMosaic.PureOps.Ideal

set_option maxRecDepth 16384

noncomputable section

namespace Cert.KernelIdeal.KernelValue

open Cert.KernelIdeal Cert.KernelIdeal.Gen Idealize.ShloMosaic Idealize.ShloMosaic.TcCoe Idealize.SL.Sem
open Cert.KernelIdeal.Keeps Cert.KernelIdeal.Stages Cert.KernelIdeal.RegionValue

variable (m : (ℓ : Loc nD τ sig) → Buf (Elt Ideal) ℓ) (ρ : Dev nD → PrngReg) (c : Dev nD)

/-! ## The edge list's sources, destinations and weights, wherever a stretch reads them -/

theorem srcs_at_3 : W3 m ρ c (Proc.devRef .tc main_v5) = Cert.Spec.srcs (m ((c : Thread nD τ).loc main_arg1)) :=
  graph_srcs (W0 m ρ c)
theorem dsts_at_3 : W3 m ρ c (Proc.devRef .tc main_v6) = Cert.Spec.dsts (m ((c : Thread nD τ).loc main_arg1)) :=
  graph_dsts (W0 m ρ c)
theorem norm_at_3 : W3 m ρ c (Proc.devRef .tc main_v29) = Cert.Spec.norm (m ((c : Thread nD τ).loc main_arg1)) :=
  graph_norm (W0 m ρ c)

/-! ## The first layer -/

/-- The first region's result: the node features times the first weight matrix. -/
theorem proj1 : W4 m ρ c (Proc.devRef .tc main_v30)
    = Cert.Spec.lin128 (F := Ideal) (m ((c : Thread nD τ).loc main_arg0)) (m ((c : Thread nD τ).loc main_arg2)) := by
  refine (W4_arr m ρ c 2).trans ((linear0 (V3 m ρ) c).trans ?_)
  show Cert.Spec.lin128 (F := Ideal) (W3 m ρ c (Proc.devRef .tc main_arg0)) (W3 m ρ c (Proc.devRef .tc main_arg2)) = _
  rw [x_at_3, w1_at_3]

/-- The stretch after it: the aggregated messages and the bias as a row. -/
theorem agg1 : W5 m ρ c (Proc.devRef .tc main_v44)
    = Cert.Spec.agg128 (Cert.Spec.lin128 (F := Ideal) (m ((c : Thread nD τ).loc main_arg0)) (m ((c : Thread nD τ).loc main_arg2)))
        (m ((c : Thread nD τ).loc main_arg1)) := by
  refine (layer1_agg (W4 m ρ c)).trans ?_
  rw [proj1, (srcs_later m ρ c).1, (dsts_later m ρ c).1, (norm_later m ρ c).1, srcs_at_3, dsts_at_3, norm_at_3]
  rfl
theorem row1 : W5 m ρ c (Proc.devRef .tc main_v45) = Cert.Spec.row128 (F := Ideal) (m ((c : Thread nD τ).loc main_arg3)) := by
  refine (layer1_row (W4 m ρ c)).trans ?_
  rw [b1_at_4]
  exact Cert.LibRowVector.shapeCast_eq_broadcastInDim _ _ _

/-- The second region's result: the first hidden layer. -/
theorem hidden1 : W6 m ρ c (Proc.devRef .tc main_v46)
    = Cert.Spec.hidden (F := Ideal) (m ((c : Thread nD τ).loc main_arg0)) (m ((c : Thread nD τ).loc main_arg1))
        (m ((c : Thread nD τ).loc main_arg2)) (m ((c : Thread nD τ).loc main_arg3)) := by
  refine (W6_arr m ρ c 2).trans ((bias1 (V5 m ρ) c).trans ?_)
  show Cert.Spec.relu128 (F := Ideal) (Cert.Spec.addRow128 (W5 m ρ c (Proc.devRef .tc main_v44)) (W5 m ρ c (Proc.devRef .tc main_v45))) = _
  rw [agg1, row1]
  rfl

/-! ## The second layer -/

theorem proj2 : W7 m ρ c (Proc.devRef .tc main_v47)
    = Cert.Spec.lin128 (F := Ideal) (Cert.Spec.hidden (F := Ideal) (m ((c : Thread nD τ).loc main_arg0)) (m ((c : Thread nD τ).loc main_arg1))
        (m ((c : Thread nD τ).loc main_arg2)) (m ((c : Thread nD τ).loc main_arg3))) (m ((c : Thread nD τ).loc main_arg4)) := by
  refine (W7_arr m ρ c 2).trans ((linear2 (V6 m ρ) c).trans ?_)
  show Cert.Spec.lin128 (F := Ideal) (W6 m ρ c (Proc.devRef .tc main_v46)) (W6 m ρ c (Proc.devRef .tc main_arg4)) = _
  rw [hidden1, w2_at_6]

theorem agg2 : W8 m ρ c (Proc.devRef .tc main_v61)
    = Cert.Spec.agg128 (Cert.Spec.lin128 (F := Ideal) (Cert.Spec.hidden (F := Ideal) (m ((c : Thread nD τ).loc main_arg0)) (m ((c : Thread nD τ).loc main_arg1))
        (m ((c : Thread nD τ).loc main_arg2)) (m ((c : Thread nD τ).loc main_arg3))) (m ((c : Thread nD τ).loc main_arg4)))
        (m ((c : Thread nD τ).loc main_arg1)) := by
  refine (layer2_agg (W7 m ρ c)).trans ?_
  rw [proj2, (srcs_later m ρ c).2.1, (dsts_later m ρ c).2.1, (norm_later m ρ c).2.1, srcs_at_3, dsts_at_3, norm_at_3]
  rfl
theorem row2 : W8 m ρ c (Proc.devRef .tc main_v62) = Cert.Spec.row128 (F := Ideal) (m ((c : Thread nD τ).loc main_arg5)) := by
  refine (layer2_row (W7 m ρ c)).trans ?_
  rw [b2_at_7]
  exact Cert.LibRowVector.shapeCast_eq_broadcastInDim _ _ _

/-- The fourth region's result: the second hidden layer. -/
theorem hidden2 : W9 m ρ c (Proc.devRef .tc main_v63)
    = Cert.Spec.hidden (F := Ideal) (Cert.Spec.hidden (F := Ideal) (m ((c : Thread nD τ).loc main_arg0)) (m ((c : Thread nD τ).loc main_arg1))
        (m ((c : Thread nD τ).loc main_arg2)) (m ((c : Thread nD τ).loc main_arg3))) (m ((c : Thread nD τ).loc main_arg1))
        (m ((c : Thread nD τ).loc main_arg4)) (m ((c : Thread nD τ).loc main_arg5)) := by
  refine (W9_arr m ρ c 2).trans ((bias3 (V8 m ρ) c).trans ?_)
  show Cert.Spec.relu128 (F := Ideal) (Cert.Spec.addRow128 (W8 m ρ c (Proc.devRef .tc main_v61)) (W8 m ρ c (Proc.devRef .tc main_v62))) = _
  rw [agg2, row2]
  rfl

/-! ## The output layer -/

theorem proj3 : W10 m ρ c (Proc.devRef .tc main_v64)
    = Cert.Spec.lin64 (F := Ideal) (Cert.Spec.hidden (F := Ideal) (Cert.Spec.hidden (F := Ideal) (m ((c : Thread nD τ).loc main_arg0)) (m ((c : Thread nD τ).loc main_arg1))
        (m ((c : Thread nD τ).loc main_arg2)) (m ((c : Thread nD τ).loc main_arg3))) (m ((c : Thread nD τ).loc main_arg1))
        (m ((c : Thread nD τ).loc main_arg4)) (m ((c : Thread nD τ).loc main_arg5))) (m ((c : Thread nD τ).loc main_arg6)) := by
  refine (W10_arr m ρ c 2).trans ((linear4 (V9 m ρ) c).trans ?_)
  show Cert.Spec.lin64 (F := Ideal) (W9 m ρ c (Proc.devRef .tc main_v63)) (W9 m ρ c (Proc.devRef .tc main_arg6)) = _
  rw [hidden2, w3_at_9]

theorem agg3 : W11 m ρ c (Proc.devRef .tc main_v78)
    = Cert.Spec.agg64 (Cert.Spec.lin64 (F := Ideal) (Cert.Spec.hidden (F := Ideal) (Cert.Spec.hidden (F := Ideal) (m ((c : Thread nD τ).loc main_arg0)) (m ((c : Thread nD τ).loc main_arg1))
        (m ((c : Thread nD τ).loc main_arg2)) (m ((c : Thread nD τ).loc main_arg3))) (m ((c : Thread nD τ).loc main_arg1))
        (m ((c : Thread nD τ).loc main_arg4)) (m ((c : Thread nD τ).loc main_arg5))) (m ((c : Thread nD τ).loc main_arg6)))
        (m ((c : Thread nD τ).loc main_arg1)) := by
  refine (layer3_agg (W10 m ρ c)).trans ?_
  rw [proj3, (srcs_later m ρ c).2.2, (dsts_later m ρ c).2.2, (norm_later m ρ c).2.2, srcs_at_3, dsts_at_3, norm_at_3]
  rfl
theorem row3 : W11 m ρ c (Proc.devRef .tc main_v79) = Cert.Spec.row64 (F := Ideal) (m ((c : Thread nD τ).loc main_arg7)) := by
  refine (layer3_row (W10 m ρ c)).trans ?_
  rw [b3_at_10]
  exact Cert.LibRowVector.shapeCast_eq_broadcastInDim _ _ _

/-- THE RESULT BUFFER after the last region: the specification's network of the arguments as launched. -/
theorem result_is_gcn : W12 m ρ c (Proc.devRef .tc main_v80)
    = Cert.Spec.gcn (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W12_arr m ρ c 2).trans ((bias5 (V11 m ρ) c).trans ?_)
  show Cert.Spec.addRow64 (F := Ideal) (W11 m ρ c (Proc.devRef .tc main_v78)) (W11 m ρ c (Proc.devRef .tc main_v79)) = _
  rw [agg3, row3]
  rfl

end Cert.KernelIdeal.KernelValue

end
-- ==== Proof.RefValue.lean ====
/-
  The reference's result is the specification's network of its arguments: the reference's host operations, composed,
  are literally the specification's operations in the specification's order (the node degrees, their inverse square
  roots and the message weights are recomputed per layer, each time from the same edge list, so each copy is the
  specification's own term).
-/
import proofs.«146135_j41326175322384_1_alg».proof.Proof.RefRun
import proofs.«146135_j41326175322384_1_alg».proof.Proof.Spec

set_option maxRecDepth 16384

noncomputable section

namespace Cert.ReferenceIdeal.RefValue

open Cert.ReferenceIdeal Cert.ReferenceIdeal.Gen Idealize.ShloMosaic Idealize.ShloMosaic.TcCoe

variable {F : FTy → Type} [FloatOps F]

theorem result_is_gcn (m : (ℓ : Loc nD τ sig) → Buf (Elt F) ℓ) (c : Dev nD) :
    Cert.ReferenceIdeal.ValueP.res_main_v134 m c
      = Cert.Spec.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v134
  rfl

end Cert.ReferenceIdeal.RefValue

end
-- ==== Proof.lean ====
/-
  The certificate of the three-layer graph convolution.

  The kernel's program computes each layer's dense product and its bias (and maximum with 0) in blocked regions and leaves
  the gather / scatter-add along the graph's messages to the host; the reference computes every step on the host. On the
  extended reals a change of float format is the identity, a block-wise product into a zero accumulator is the whole
  product, and adding a row reshaped from the bias vector is adding the bias indexed with a new leading axis; the host
  steps in between are the same operations on both sides. So both programs end with the specification's network
  (Proof/Spec.lean) of their arguments: the kernel's program by walking its segments (Proof/KernelValue.lean, over the
  run of Proof/KernelRun.lean), the reference by reading its composed operations (Proof/RefValue.lean). Nothing in the
  comparison needs the inputs to be finite: no law beyond the operations' own definitions is used.
-/
import proofs.«146135_j41326175322384_1_alg».proof.Defs
import proofs.«146135_j41326175322384_1_alg».proof.Proof.Gen.Kernel
import proofs.«146135_j41326175322384_1_alg».proof.Proof.Gen.Kernel.Frame
import proofs.«146135_j41326175322384_1_alg».proof.Proof.Gen.KernelIdeal
import proofs.«146135_j41326175322384_1_alg».proof.Proof.Gen.KernelIdeal.Frame
import proofs.«146135_j41326175322384_1_alg».proof.Proof.Gen.ReferenceIdeal
import proofs.«146135_j41326175322384_1_alg».proof.Proof.Gen.Pre_finite_inputs
import proofs.«146135_j41326175322384_1_alg».proof.Proof.KernelRun
import proofs.«146135_j41326175322384_1_alg».proof.Proof.KernelValue
import proofs.«146135_j41326175322384_1_alg».proof.Proof.RefRun
import proofs.«146135_j41326175322384_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is host operations only: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the specification's network of the arguments, which agree. -/
theorem algebraic : Cert.algebraic_KernelIdeal_ReferenceIdeal := by
  intro m ρ m' ρ' _ hagree
  refine ⟨fun c => Cert.Spec.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.result_is_gcn m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_is_gcn, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
